-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S10000x64 : Shape := ⟨2, ![10000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg10 : FVec F S64x2 .f32) (main_arg11 : FVec F S2 .f32) (main_v33 : IVec S_ 1) : IVec S_ 1 :=
  let main_v34 : FVec F S64x2 .f32 := Host.absf main_arg10
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg11
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg7 : FVec F S64x64 .f32) (main_arg8 : FVec F S64 .f32) (main_arg9 : FVec F S64x64 .f32) (main_arg10 : FVec F S64x2 .f32) (main_arg11 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_v33

def fn {F : FTy → Type} [FloatOps F] (main_arg0 : IVec S100000 32) (main_arg1 : IVec S2x1600000 32) (main_arg2 : IVec S100000 32) (main_arg3 : FVec F S10000x64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x2 .f32) (main_arg11 : FVec F S2 .f32) : IVec S_ 1 :=
  let main_v0 : FVec F S10000x64 .f32 := Host.absf main_arg3
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_v13 main_v16
-- ==== Kernel.lean ====
abbrev S100000 : Shape := ⟨1, ![100000]⟩
abbrev S2x1600000 : Shape := ⟨2, ![2, 1600000]⟩
abbrev S10000x64 : Shape := ⟨2, ![10000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x64 : Shape := ⟨2, ![100000, 64]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S512x64 : Shape := ⟨2, ![512, 64]⟩
abbrev S512x1 : Shape := ⟨2, ![512, 1]⟩
abbrev S1x2 : Shape := ⟨2, ![1, 2]⟩
abbrev S512x2 : Shape := ⟨2, ![512, 2]⟩

abbrev nBuf : Space → Nat
  | .hbm => 118
  | .vmem => 22
  | .smem => 0
  | _ => 0

abbrev bufTy : (tb : Table) → Fin (tcTables nBuf tb) → BufTy
  | .hbm, ⟨0, _⟩ => ⟨S100000, .i32⟩
  | .hbm, ⟨1, _⟩ => ⟨S2x1600000, .i32⟩
  | .hbm, ⟨2, _⟩ => ⟨S100000, .i32⟩
  | .hbm, ⟨3, _⟩ => ⟨S10000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x2, .f32⟩
  | .hbm, ⟨11, _⟩ => ⟨S2, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S100000, .i32⟩
  | .hbm, ⟨18, _⟩ => ⟨S100000, .i1⟩
  | .hbm, ⟨19, _⟩ => ⟨S_, .i32⟩
  | .hbm, ⟨20, _⟩ => ⟨S100000, .i32⟩
  | .hbm, ⟨21, _⟩ => ⟨S100000, .i32⟩
  | .hbm, ⟨22, _⟩ => ⟨S100000, .i32⟩
  | .hbm, ⟨23, _⟩ => ⟨S100000x1, .i32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S_, .f32⟩
  | .hbm, ⟨39, _⟩ => ⟨S1600000x1, .f32⟩
  | .hbm, ⟨40, _⟩ => ⟨S_, .f32⟩
  | .hbm, ⟨41, _⟩ => ⟨S100000x1, .f32⟩
  | .hbm, ⟨42, _⟩ => ⟨S1600000x1, .i32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .i1⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S_, .f32⟩
  | .hbm, ⟨54, _⟩ => ⟨S100000x64, .i1⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S_, .f32⟩
  | .hbm, ⟨73, _⟩ => ⟨S1600000x1, .f32⟩
  | .hbm, ⟨74, _⟩ => ⟨S_, .f32⟩
  | .hbm, ⟨75, _⟩ => ⟨S100000x1, .f32⟩
  | .hbm, ⟨76, _⟩ => ⟨S1600000x1, .i32⟩
  | .hbm, ⟨77, _⟩ => ⟨S100000x1, .f32⟩
  | .hbm, ⟨78, _⟩ => ⟨S_, .f32⟩
  | .hbm, ⟨79, _⟩ => ⟨S100000x1, .f32⟩
  | .hbm, ⟨80, _⟩ => ⟨S100000x1, .i1⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S_, .f32⟩
  | .hbm, ⟨88, _⟩ => ⟨S100000x64, .i1⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S_, .f32⟩
  | .hbm, ⟨94, _⟩ => ⟨S512x64, .f32⟩
  | .hbm, ⟨95, _⟩ => ⟨S100000x1, .i32⟩
  | .hbm, ⟨96, _⟩ => ⟨S512x64, .f32⟩
  | .hbm, ⟨97, _⟩ => ⟨S_, .f32⟩
  | .hbm, ⟨98, _⟩ => ⟨S100000x1, .f32⟩
  | .hbm, ⟨99, _⟩ => ⟨S_, .f32⟩
  | .hbm, ⟨100, _⟩ => ⟨S512x1, .f32⟩
  | .hbm, ⟨101, _⟩ => ⟨S100000x1, .i32⟩
  | .hbm, ⟨102, _⟩ => ⟨S512x1, .f32⟩
  | .hbm, ⟨103, _⟩ => ⟨S_, .f32⟩
  | .hbm, ⟨104, _⟩ => ⟨S512x1, .f32⟩
  | .hbm, ⟨105, _⟩ => ⟨S512x1, .i1⟩
  | .hbm, ⟨106, _⟩ => ⟨S_, .f32⟩
  | .hbm, ⟨107, _⟩ => ⟨S512x1, .f32⟩
  | .hbm, ⟨108, _⟩ => ⟨S512x1, .f32⟩
  | .hbm, ⟨109, _⟩ => ⟨S512x64, .f32⟩
  | .hbm, ⟨110, _⟩ => ⟨S512x64, .f32⟩
  | .hbm, ⟨111, _⟩ => ⟨S_, .f32⟩
  | .hbm, ⟨112, _⟩ => ⟨S_, .f32⟩
  | .hbm, ⟨113, _⟩ => ⟨S512x64, .i1⟩
  | .hbm, ⟨114, _⟩ => ⟨S512x64, .f32⟩
  | .hbm, ⟨115, _⟩ => ⟨S512x64, .f32⟩
  | .hbm, ⟨116, _⟩ => ⟨S1x2, .f32⟩
  | .hbm, ⟨117, _⟩ => ⟨S512x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S512x64, .f32⟩
  | .local _ .vmem, ⟨19, _⟩ => ⟨S64x2, .f32⟩
  | .local _ .vmem, ⟨20, _⟩ => ⟨S1x2, .f32⟩
  | .local _ .vmem, ⟨21, _⟩ => ⟨S512x2, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_11 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_v49 : Ref sig .tc := ⟨.hbm, 80, rfl⟩
abbrev main_cst_14 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_15 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_16 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_17 : Ref sig .tc := ⟨.hbm, 97, rfl⟩
abbrev main_v60 : Ref sig .tc := ⟨.hbm, 98, rfl⟩
abbrev main_cst_18 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_19 : Ref sig .tc := ⟨.hbm, 103, rfl⟩
abbrev main_v64 : Ref sig .tc := ⟨.hbm, 104, rfl⟩
abbrev main_v65 : Ref sig .tc := ⟨.hbm, 105, rfl⟩
abbrev main_cst_20 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_21 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S512x64 : S_.BroadcastsInDim S512x64 (![] : Fin 0 → Fin S512x64.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  shapeCasts_S2_S1x2 : S2.ShapeCasts S1x2
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  gather_S10000x64_S100000x1_S100000x64_1_0_n_n_0_1_164_wf : GatherDims.WF S10000x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S5000x64_S64x64_S5000x64_1_0_0_1_n_n_wf : DotDims.WF S5000x64 S64x64 S5000x64 [1] [0] [0] [1] [] []
  scatter_S512x64_S100000x1_S100000x64_1_0_0_1_wf : ScatterDims.WF S512x64 S100000x1 S100000x64 [1] [0] [0] 1
  scatter_S512x1_S100000x1_S100000x1_1_0_0_1_wf : ScatterDims.WF S512x1 S100000x1 S100000x1 [1] [0] [0] 1
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S512x64.size a
  hwx2_0 : ∀ i : grid2.Coords, EltTy.bits .f32 = 32 ∨ (Rect.block (s := S512x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x2.size a ≤ S512x2.size a
  hwx2_3 : ∀ i : grid2.Coords, EltTy.bits .f32 = 32 ∨ (Rect.block (s := S512x2) S512x2.size (cc2_transform_3 i) (hinb2_3 i)).WholeWords (EltTy.packing .f32)

variable [Facts₀]

def gather_S10000x64_S100000x1_S100000x64_1_0_n_n_0_1_164 : GatherDims S10000x64 S100000x1 S100000x64 where
  offsetDims := [1]
  collapsedSliceDims := [0]
  operandBatchingDims := []
  startIndicesBatchingDims := []
  startIndexMap := [0]
  indexVectorDim := 1
  sliceSizes := ![1, 64]
  wf := gather_S10000x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_v31) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v54) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v70) S512x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S512x2.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000 : Shape := ⟨1, ![100000]⟩
abbrev S2x1600000 : Shape := ⟨2, ![2, 1600000]⟩
abbrev S10000x64 : Shape := ⟨2, ![10000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x64 : Shape := ⟨2, ![100000, 64]⟩
abbrev S1600000x1 : Shape := ⟨2, ![1600000, 1]⟩
abbrev S1600000x64 : Shape := ⟨2, ![1600000, 64]⟩
abbrev S1x64 : Shape := ⟨2, ![1, 64]⟩
abbrev S512x64 : Shape := ⟨2, ![512, 64]⟩
abbrev S512x1 : Shape := ⟨2, ![512, 1]⟩
abbrev S512x2 : Shape := ⟨2, ![512, 2]⟩
abbrev S1x2 : Shape := ⟨2, ![1, 2]⟩

abbrev nBuf : Space → Nat
  | .hbm => 134
  | .vmem => 0
  | .smem => 0
  | _ => 0

abbrev hbmTy0_0 (i : Nat) : BufTy := match i % 128 with
  | 0 => ⟨S100000, .i32⟩
  | 1 => ⟨S2x1600000, .i32⟩
  | 2 => ⟨S100000, .i32⟩
  | 3 => ⟨S10000x64, .f32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x2, .f32⟩
  | 11 => ⟨S2, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x64, .f32⟩
  | 34 => ⟨S_, .f32⟩
  | 35 => ⟨S100000x64, .f32⟩
  | 36 => ⟨S1600000x1, .i32⟩
  | 37 => ⟨S100000x64, .f32⟩
  | 38 => ⟨S_, .f32⟩
  | 39 => ⟨S1600000x1, .f32⟩
  | 40 => ⟨S_, .f32⟩
  | 41 => ⟨S100000x1, .f32⟩
  | 42 => ⟨S1600000x1, .i32⟩
  | 43 => ⟨S100000x1, .f32⟩
  | 44 => ⟨S_, .f32⟩
  | 45 => ⟨S100000x1, .f32⟩
  | 46 => ⟨S100000x1, .i1⟩
  | 47 => ⟨S_, .f32⟩
  | 48 => ⟨S100000x1, .f32⟩
  | 49 => ⟨S100000x1, .f32⟩
  | 50 => ⟨S100000x64, .f32⟩
  | 51 => ⟨S100000x64, .f32⟩
  | 52 => ⟨S_, .f32⟩
  | 53 => ⟨S_, .f32⟩
  | 54 => ⟨S100000x64, .i1⟩
  | 55 => ⟨S100000x64, .f32⟩
  | 56 => ⟨S100000x64, .f32⟩
  | 57 => ⟨S100000x64, .f32⟩
  | 58 => ⟨S1x64, .f32⟩
  | 59 => ⟨S100000x64, .f32⟩
  | 60 => ⟨S100000x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S_, .f32⟩
  | 80 => ⟨S1600000x1, .f32⟩
  | 81 => ⟨S_, .f32⟩
  | 82 => ⟨S100000x1, .f32⟩
  | 83 => ⟨S1600000x1, .i32⟩
  | 84 => ⟨S100000x1, .f32⟩
  | 85 => ⟨S_, .f32⟩
  | 86 => ⟨S100000x1, .f32⟩
  | 87 => ⟨S100000x1, .i1⟩
  | 88 => ⟨S_, .f32⟩
  | 89 => ⟨S100000x1, .f32⟩
  | 90 => ⟨S100000x1, .f32⟩
  | 91 => ⟨S100000x64, .f32⟩
  | 92 => ⟨S100000x64, .f32⟩
  | 93 => ⟨S_, .f32⟩
  | 94 => ⟨S_, .f32⟩
  | 95 => ⟨S100000x64, .i1⟩
  | 96 => ⟨S100000x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S_, .f32⟩
  | 108 => ⟨S512x64, .f32⟩
  | 109 => ⟨S100000x1, .i32⟩
  | 110 => ⟨S512x64, .f32⟩
  | 111 => ⟨S_, .f32⟩
  | 112 => ⟨S100000x1, .f32⟩
  | 113 => ⟨S_, .f32⟩
  | 114 => ⟨S512x1, .f32⟩
  | 115 => ⟨S100000x1, .i32⟩
  | 116 => ⟨S512x1, .f32⟩
  | 117 => ⟨S_, .f32⟩
  | 118 => ⟨S512x1, .f32⟩
  | 119 => ⟨S512x1, .i1⟩
  | 120 => ⟨S_, .f32⟩
  | 121 => ⟨S512x1, .f32⟩
  | 122 => ⟨S512x1, .f32⟩
  | 123 => ⟨S512x64, .f32⟩
  | 124 => ⟨S512x64, .f32⟩
  | 125 => ⟨S_, .f32⟩
  | 126 => ⟨S_, .f32⟩
  | 127 => ⟨S512x64, .i1⟩
  | _ => ⟨S100000, .i32⟩

abbrev hbmTy0_1 (i : Nat) : BufTy := match i % 128 with
  | 0 => ⟨S512x64, .f32⟩
  | 1 => ⟨S512x64, .f32⟩
  | 2 => ⟨S512x2, .f32⟩
  | 3 => ⟨S1x2, .f32⟩
  | 4 => ⟨S512x2, .f32⟩
  | 5 => ⟨S512x2, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call1_cst : Ref sig .tc := ⟨.hbm, 63, rfl⟩
abbrev main_call1_v0 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_c_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_cst_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_cst_14 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_15 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call3_cst : Ref sig .tc := ⟨.hbm, 104, rfl⟩
abbrev main_call3_v0 : Ref sig .tc := ⟨.hbm, 105, rfl⟩
abbrev main_v66 : Ref sig .tc := ⟨.hbm, 106, rfl⟩
abbrev main_cst_16 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_17 : Ref sig .tc := ⟨.hbm, 111, rfl⟩
abbrev main_v70 : Ref sig .tc := ⟨.hbm, 112, rfl⟩
abbrev main_cst_18 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_19 : Ref sig .tc := ⟨.hbm, 117, rfl⟩
abbrev main_v74 : Ref sig .tc := ⟨.hbm, 118, rfl⟩
abbrev main_v75 : Ref sig .tc := ⟨.hbm, 119, rfl⟩
abbrev main_cst_20 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_21 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S10000x64_S100000x1_S100000x64_1_0_n_n_0_1_164_wf : GatherDims.WF S10000x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512x1_S100000x1_S100000x1_1_0_0_1_wf : ScatterDims.WF S512x1 S100000x1 S100000x1 [1] [0] [0] 1
  dot_S512x64_S64x2_S512x2_1_0_0_1_n_n_wf : DotDims.WF S512x64 S64x2 S512x2 [1] [0] [0] [1] [] []

variable [Facts₀]

def gather_S10000x64_S100000x1_S100000x64_1_0_n_n_0_1_164 : GatherDims S10000x64 S100000x1 S100000x64 where
  offsetDims := [1]
  collapsedSliceDims := [0]
  operandBatchingDims := []
  startIndicesBatchingDims := []
  startIndexMap := [0]
  indexVectorDim := 1
  sliceSizes := ![1, 64]
  wf := gather_S10000x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

class Facts : Prop extends Facts₀ where

variable [Facts]
-- ==== Proof.KernelRun.lean ====
/-
  The kernel's program run from the launch to the return, with its result named: every weakly fair execution ends, nothing
  faults, the result array holds what the last pallas_call's write-backs leave in it, and the twelve arguments hold what
  they were launched with. The program is three pallas_calls among stretches of host operations; the buffers' contents at
  each boundary are a fold from the launch memory, and the last boundary's contents are read against the final state.
-/
import proofs.«104735_j88648124990794_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- The run: the result array at the last boundary's contents, the arguments as launched. -/
theorem run_named : θ_run defs (onTc (τ := τ) (main (F := F))) ⟨m, fun _ => 0, ρ⟩ (fun r => ∀ c : Dev nD,
      r.2.mem ((c.tc : Thread nD τ).loc main_v72) = W12 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v72 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Named

end
-- ==== Proof.Net.lean ====
/-
  The network both programs compute, as one function of the twelve argument arrays, built from five stages:
  the embedding lookup (rows of the table picked by the tokens, a negative token counted from the end), the mean of the
  neighbours' rows (rows gathered at the edges' sources, summed into the edges' targets, divided by the number of incoming
  edges where there is one, zero where there is none), one graph layer relu(mean · W_l + b_l + x · W_r), the mean of the
  nodes' rows per graph, and the last linear map pooled · W_out + b_out. A layer and the last map are also stated with
  the bias already laid out as a one-row matrix, which is how a kernel receives it.
-/
import proofs.«104735_j88648124990794_1_alg».proof.Proof.Gen.ReferenceIdeal

noncomputable section

namespace Cert.Sage

open Cert.ReferenceIdeal Cert.ReferenceIdeal.Gen Idealize.ShloMosaic

variable {F : FTy → Type} [FloatOps F]

/-- The edges' sources: row 0 of the edge list. -/
def src (a1 : (⟨S2x1600000, .i32⟩ : BufTy).Contents (Elt F)) : (⟨S1600000, .i32⟩ : BufTy).Contents (Elt F) :=
  shapeCast _ (extractStridedSlice S1x1600000 ![0, 0] a1 slices_S2x1600000_S1x1600000_0_0) shapeCasts_S1x1600000_S1600000

/-- The edges' targets: row 1 of the edge list. -/
def dst (a1 : (⟨S2x1600000, .i32⟩ : BufTy).Contents (Elt F)) : (⟨S1600000, .i32⟩ : BufTy).Contents (Elt F) :=
  shapeCast _ (extractStridedSlice S1x1600000 ![1, 0] a1 slices_S2x1600000_S1x1600000_1_0) shapeCasts_S1x1600000_S1600000

/-- The embedding lookup: node n gets row tokens(n) of the table (a negative token counted from the table's end). -/
def emb (a0 : (⟨S100000, .i32⟩ : BufTy).Contents (Elt F)) (a3 : (⟨S10000x64, .f32⟩ : BufTy).Contents (Elt F)) :
    (⟨S100000x64, .f32⟩ : BufTy).Contents (Elt F) :=
  Host.gather gather_S10000x64_S100000x1_S100000x64_1_0_n_n_0_1_164 a3 (broadcastInDim S100000x1 ![0] bcast_S100000_S100000x1_0 (select (cmpi .slt a0 (broadcastInDim S100000 ![] bcast_S_S100000 (constantI S_ 32 0#32))) (addi a0 (broadcastInDim S100000 ![] bcast_S_S100000 (constantI S_ 32 10000#32))) a0))

/-- The number of edges arriving at each node, as a column. -/
def indeg (d : (⟨S1600000, .i32⟩ : BufTy).Contents (Elt F)) : (⟨S100000x1, .f32⟩ : BufTy).Contents (Elt F) :=
  Host.scatterAdd scatter_S100000x1_S1600000x1_S1600000x1_1_0_0_1 (broadcastInDim S100000x1 ![] bcast_S_S100000x1 (constant S_ .f32 0x00000000#32)) (broadcastInDim S1600000x1 ![0] bcast_S1600000_S1600000x1_0 d) (broadcastInDim S1600000x1 ![] bcast_S_S1600000x1 (constant S_ .f32 0x3F800000#32))

/-- The mean of the neighbours' rows: rows of `x` gathered at the sources, summed into the targets, divided by the number of
    incoming edges (at least one), and zero at a node no edge reaches. -/
def meanAgg (x : (⟨S100000x64, .f32⟩ : BufTy).Contents (Elt F)) (s d : (⟨S1600000, .i32⟩ : BufTy).Contents (Elt F)) :
    (⟨S100000x64, .f32⟩ : BufTy).Contents (Elt F) :=
  select (broadcastInDim S100000x64 ![0, 1] bcast_S100000x1_S100000x64_0_1 (cmpf .ogt (indeg d) (broadcastInDim S100000x1 ![] bcast_S_S100000x1 (constant S_ .f32 0x00000000#32)))) (Host.divf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 d) (Host.gather gather_S100000x64_S1600000x1_S1600000x64_1_0_n_n_0_1_164 x (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))) (broadcastInDim S100000x64 ![0, 1] bcast_S100000x1_S100000x64_0_1 (maximumf (indeg d) (broadcastInDim S100000x1 ![] bcast_S_S100000x1 (constant S_ .f32 0x3F800000#32))))) (broadcastInDim S100000x64 ![] bcast_S_S100000x64 (id (constant S_ .f32 0x00000000#32)))

/-- One graph layer with the bias given as a one-row matrix: relu(mean · W_l + b + x · W_r), the sum taken in this order. -/
def layer2d (mean x : (⟨S100000x64, .f32⟩ : BufTy).Contents (Elt F)) (Wl : (⟨S64x64, .f32⟩ : BufTy).Contents (Elt F))
    (b2d : (⟨S1x64, .f32⟩ : BufTy).Contents (Elt F)) (Wr : (⟨S64x64, .f32⟩ : BufTy).Contents (Elt F)) :
    (⟨S100000x64, .f32⟩ : BufTy).Contents (Elt F) :=
  maximumf (addf (addf (Host.dotGeneral dot_S100000x64_S64x64_S100000x64_1_0_0_1_n_n none mean Wl) (broadcastInDim S100000x64 ![0, 1] bcast_S1x64_S100000x64_0_1 b2d)) (Host.dotGeneral dot_S100000x64_S64x64_S100000x64_1_0_0_1_n_n none x Wr)) (broadcastInDim S100000x64 ![] bcast_S_S100000x64 (constant S_ .f32 0x00000000#32))

/-- One graph layer, the bias a vector. -/
def layer (mean x : (⟨S100000x64, .f32⟩ : BufTy).Contents (Elt F)) (Wl : (⟨S64x64, .f32⟩ : BufTy).Contents (Elt F))
    (b : (⟨S64, .f32⟩ : BufTy).Contents (Elt F)) (Wr : (⟨S64x64, .f32⟩ : BufTy).Contents (Elt F)) :
    (⟨S100000x64, .f32⟩ : BufTy).Contents (Elt F) :=
  layer2d mean x Wl (broadcastInDim S1x64 ![1] bcast_S64_S1x64_1 b) Wr

/-- The number of nodes of each graph, as a column. -/
def gsize (g : (⟨S100000, .i32⟩ : BufTy).Contents (Elt F)) : (⟨S512x1, .f32⟩ : BufTy).Contents (Elt F) :=
  Host.scatterAdd scatter_S512x1_S100000x1_S100000x1_1_0_0_1 (broadcastInDim S512x1 ![] bcast_S_S512x1 (constant S_ .f32 0x00000000#32)) (broadcastInDim S100000x1 ![0] bcast_S100000_S100000x1_0 g) (broadcastInDim S100000x1 ![] bcast_S_S100000x1 (constant S_ .f32 0x3F800000#32))

/-- The mean of the nodes' rows per graph (zero for a graph with no node). -/
def pool (x : (⟨S100000x64, .f32⟩ : BufTy).Contents (Elt F)) (g : (⟨S100000, .i32⟩ : BufTy).Contents (Elt F)) :
    (⟨S512x64, .f32⟩ : BufTy).Contents (Elt F) :=
  select (broadcastInDim S512x64 ![0, 1] bcast_S512x1_S512x64_0_1 (cmpf .ogt (gsize g) (broadcastInDim S512x1 ![] bcast_S_S512x1 (constant S_ .f32 0x00000000#32)))) (Host.divf (Host.scatterAdd scatter_S512x64_S100000x1_S100000x64_1_0_0_1 (broadcastInDim S512x64 ![] bcast_S_S512x64 (constant S_ .f32 0x00000000#32)) (broadcastInDim S100000x1 ![0] bcast_S100000_S100000x1_0 g) x) (broadcastInDim S512x64 ![0, 1] bcast_S512x1_S512x64_0_1 (maximumf (gsize g) (broadcastInDim S512x1 ![] bcast_S_S512x1 (constant S_ .f32 0x3F800000#32))))) (broadcastInDim S512x64 ![] bcast_S_S512x64 (id (constant S_ .f32 0x00000000#32)))

/-- The last linear map with the bias given as a one-row matrix: p · W + b. -/
def final2d (p : (⟨S512x64, .f32⟩ : BufTy).Contents (Elt F)) (W : (⟨S64x2, .f32⟩ : BufTy).Contents (Elt F))
    (b2d : (⟨S1x2, .f32⟩ : BufTy).Contents (Elt F)) : (⟨S512x2, .f32⟩ : BufTy).Contents (Elt F) :=
  addf (Host.dotGeneral dot_S512x64_S64x2_S512x2_1_0_0_1_n_n none p W) (broadcastInDim S512x2 ![0, 1] bcast_S1x2_S512x2_0_1 b2d)

/-- The last linear map, the bias a vector. -/
def final (p : (⟨S512x64, .f32⟩ : BufTy).Contents (Elt F)) (W : (⟨S64x2, .f32⟩ : BufTy).Contents (Elt F))
    (b : (⟨S2, .f32⟩ : BufTy).Contents (Elt F)) : (⟨S512x2, .f32⟩ : BufTy).Contents (Elt F) :=
  final2d p W (broadcastInDim S1x2 ![1] bcast_S2_S1x2_1 b)

/-- The first layer's output. -/
def hidden1 (a0 : (⟨S100000, .i32⟩ : BufTy).Contents (Elt F)) (a1 : (⟨S2x1600000, .i32⟩ : BufTy).Contents (Elt F))
    (a3 : (⟨S10000x64, .f32⟩ : BufTy).Contents (Elt F)) (a4 : (⟨S64x64, .f32⟩ : BufTy).Contents (Elt F))
    (a5 : (⟨S64, .f32⟩ : BufTy).Contents (Elt F)) (a6 : (⟨S64x64, .f32⟩ : BufTy).Contents (Elt F)) :
    (⟨S100000x64, .f32⟩ : BufTy).Contents (Elt F) :=
  layer (meanAgg (emb a0 a3) (src a1) (dst a1)) (emb a0 a3) a4 a5 a6

/-- The second layer's output. -/
def hidden2 (a0 : (⟨S100000, .i32⟩ : BufTy).Contents (Elt F)) (a1 : (⟨S2x1600000, .i32⟩ : BufTy).Contents (Elt F))
    (a3 : (⟨S10000x64, .f32⟩ : BufTy).Contents (Elt F)) (a4 : (⟨S64x64, .f32⟩ : BufTy).Contents (Elt F))
    (a5 : (⟨S64, .f32⟩ : BufTy).Contents (Elt F)) (a6 a7 : (⟨S64x64, .f32⟩ : BufTy).Contents (Elt F))
    (a8 : (⟨S64, .f32⟩ : BufTy).Contents (Elt F)) (a9 : (⟨S64x64, .f32⟩ : BufTy).Contents (Elt F)) :
    (⟨S100000x64, .f32⟩ : BufTy).Contents (Elt F) :=
  layer (meanAgg (hidden1 a0 a1 a3 a4 a5 a6) (src a1) (dst a1)) (hidden1 a0 a1 a3 a4 a5 a6) a7 a8 a9

/-- The whole network: two layers, the mean per graph, the last linear map. -/
def net (a0 : (⟨S100000, .i32⟩ : BufTy).Contents (Elt F)) (a1 : (⟨S2x1600000, .i32⟩ : BufTy).Contents (Elt F))
    (a2 : (⟨S100000, .i32⟩ : BufTy).Contents (Elt F))
    (a3 : (⟨S10000x64, .f32⟩ : BufTy).Contents (Elt F)) (a4 : (⟨S64x64, .f32⟩ : BufTy).Contents (Elt F))
    (a5 : (⟨S64, .f32⟩ : BufTy).Contents (Elt F)) (a6 a7 : (⟨S64x64, .f32⟩ : BufTy).Contents (Elt F))
    (a8 : (⟨S64, .f32⟩ : BufTy).Contents (Elt F)) (a9 : (⟨S64x64, .f32⟩ : BufTy).Contents (Elt F))
    (a10 : (⟨S64x2, .f32⟩ : BufTy).Contents (Elt F)) (a11 : (⟨S2, .f32⟩ : BufTy).Contents (Elt F)) :
    (⟨S512x2, .f32⟩ : BufTy).Contents (Elt F) :=
  final (pool (hidden2 a0 a1 a3 a4 a5 a6 a7 a8 a9) a2) a10 a11

end Cert.Sage

end
-- ==== Proof.HostStages.lean ====
/-
  What the kernel program's host operations compute between its pallas_calls, read at the buffers the pallas_calls take.
  Before the first call: the embedded tokens, the mean of the neighbours' rows, the first layer's bias as a one-row matrix;
  between the first and the second: the same mean taken of the first layer's output; between the second and the last:
  the mean per graph of the second layer's output. A buffer no operation of a stretch writes holds what it held, and a
  pallas_call leaves every buffer that is not one of its arrays as it found it.
-/
import proofs.«104735_j88648124990794_1_alg».proof.Proof.Gen.KernelIdeal.Frame
import proofs.«104735_j88648124990794_1_alg».proof.Proof.Net

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first pallas_call: everything is a function of the launch memory -/

/-- The embedded tokens. -/
theorem entry0_x (c : Dev nD) : V3 m ρ c main_v10 = Cert.Sage.emb (m ((c : Thread nD τ).loc main_arg0)) (m ((c : Thread nD τ).loc main_arg3)) := by
  show W3 m ρ c (Proc.devRef .tc main_v10) = _
  dsimp only [W3, W2, W1, W0]; simp only [hostOps0, hostOps0_1, hostOps0_2]
  after_results_simp
  rfl

/-- The mean of the neighbours' embedded rows. -/
theorem entry0_mean (c : Dev nD) :
    V3 m ρ c main_v31 = Cert.Sage.meanAgg (Cert.Sage.emb (m ((c : Thread nD τ).loc main_arg0)) (m ((c : Thread nD τ).loc main_arg3))) (Cert.Sage.src (m ((c : Thread nD τ).loc main_arg1))) (Cert.Sage.dst (m ((c : Thread nD τ).loc main_arg1))) := by
  show W3 m ρ c (Proc.devRef .tc main_v31) = _
  dsimp only [W3, W2, W1, W0]; simp only [hostOps0, hostOps0_1, hostOps0_2]
  after_results_simp
  rfl

/-- The first layer's bias, reshaped to one row. -/
theorem entry0_bias (c : Dev nD) : V3 m ρ c main_v32 = shapeCast _ (m ((c : Thread nD τ).loc main_arg5)) shapeCasts_S64_S1x64 := by
  show W3 m ρ c (Proc.devRef .tc main_v32) = _
  dsimp only [W3, W2, W1, W0]; simp only [hostOps0, hostOps0_1, hostOps0_2]
  after_results_simp
  rfl

/-- The edges' sources and targets. -/
theorem stage0_src (c : Dev nD) : W3 m ρ c (Proc.devRef .tc main_v1) = Cert.Sage.src (m ((c : Thread nD τ).loc main_arg1)) := by
  dsimp only [W3, W2, W1, W0]; simp only [hostOps0, hostOps0_1, hostOps0_2]
  after_results_simp
  rfl
theorem stage0_dst (c : Dev nD) : W3 m ρ c (Proc.devRef .tc main_v3) = Cert.Sage.dst (m ((c : Thread nD τ).loc main_arg1)) := by
  dsimp only [W3, W2, W1, W0]; simp only [hostOps0, hostOps0_1, hostOps0_2]
  after_results_simp
  rfl

/-- Argument 2 is not written before the first pallas_call. -/
theorem stage0_arg2 (c : Dev nD) : W3 m ρ c (Proc.devRef .tc main_arg2) = (m ((c : Thread nD τ).loc main_arg2)) := by
  dsimp only [W3, W2, W1, W0]; simp only [hostOps0, hostOps0_1, hostOps0_2]
  after_results_simp

/-- Argument 4 is not written before the first pallas_call. -/
theorem stage0_arg4 (c : Dev nD) : W3 m ρ c (Proc.devRef .tc main_arg4) = (m ((c : Thread nD τ).loc main_arg4)) := by
  dsimp only [W3, W2, W1, W0]; simp only [hostOps0, hostOps0_1, hostOps0_2]
  after_results_simp

/-- Argument 6 is not written before the first pallas_call. -/
theorem stage0_arg6 (c : Dev nD) : W3 m ρ c (Proc.devRef .tc main_arg6) = (m ((c : Thread nD τ).loc main_arg6)) := by
  dsimp only [W3, W2, W1, W0]; simp only [hostOps0, hostOps0_1, hostOps0_2]
  after_results_simp

/-- Argument 7 is not written before the first pallas_call. -/
theorem stage0_arg7 (c : Dev nD) : W3 m ρ c (Proc.devRef .tc main_arg7) = (m ((c : Thread nD τ).loc main_arg7)) := by
  dsimp only [W3, W2, W1, W0]; simp only [hostOps0, hostOps0_1, hostOps0_2]
  after_results_simp

/-- Argument 8 is not written before the first pallas_call. -/
theorem stage0_arg8 (c : Dev nD) : W3 m ρ c (Proc.devRef .tc main_arg8) = (m ((c : Thread nD τ).loc main_arg8)) := by
  dsimp only [W3, W2, W1, W0]; simp only [hostOps0, hostOps0_1, hostOps0_2]
  after_results_simp

/-- Argument 9 is not written before the first pallas_call. -/
theorem stage0_arg9 (c : Dev nD) : W3 m ρ c (Proc.devRef .tc main_arg9) = (m ((c : Thread nD τ).loc main_arg9)) := by
  dsimp only [W3, W2, W1, W0]; simp only [hostOps0, hostOps0_1, hostOps0_2]
  after_results_simp

/-- Argument 10 is not written before the first pallas_call. -/
theorem stage0_arg10 (c : Dev nD) : W3 m ρ c (Proc.devRef .tc main_arg10) = (m ((c : Thread nD τ).loc main_arg10)) := by
  dsimp only [W3, W2, W1, W0]; simp only [hostOps0, hostOps0_1, hostOps0_2]
  after_results_simp

/-- Argument 11 is not written before the first pallas_call. -/
theorem stage0_arg11 (c : Dev nD) : W3 m ρ c (Proc.devRef .tc main_arg11) = (m ((c : Thread nD τ).loc main_arg11)) := by
  dsimp only [W3, W2, W1, W0]; simp only [hostOps0, hostOps0_1, hostOps0_2]
  after_results_simp

/-! ## The first pallas_call: its output array, and what it leaves alone -/

theorem out0 (c : Dev nD) : W4 m ρ c (Proc.devRef .tc main_v33) = (dat0 (V3 m ρ) c).arrAt 5 cfg0.N := W4_arr m ρ c 5
theorem past0_v1 (c : Dev nD) : W4 m ρ c (Proc.devRef .tc main_v1) = W3 m ρ c (Proc.devRef .tc main_v1) := W4_of_ne m ρ c main_v1 (by decide)
theorem past0_v3 (c : Dev nD) : W4 m ρ c (Proc.devRef .tc main_v3) = W3 m ρ c (Proc.devRef .tc main_v3) := W4_of_ne m ρ c main_v3 (by decide)
theorem past0_arg2 (c : Dev nD) : W4 m ρ c (Proc.devRef .tc main_arg2) = W3 m ρ c (Proc.devRef .tc main_arg2) := W4_of_ne m ρ c main_arg2 (by decide)
theorem past0_arg7 (c : Dev nD) : W4 m ρ c (Proc.devRef .tc main_arg7) = W3 m ρ c (Proc.devRef .tc main_arg7) := W4_of_ne m ρ c main_arg7 (by decide)
theorem past0_arg8 (c : Dev nD) : W4 m ρ c (Proc.devRef .tc main_arg8) = W3 m ρ c (Proc.devRef .tc main_arg8) := W4_of_ne m ρ c main_arg8 (by decide)
theorem past0_arg9 (c : Dev nD) : W4 m ρ c (Proc.devRef .tc main_arg9) = W3 m ρ c (Proc.devRef .tc main_arg9) := W4_of_ne m ρ c main_arg9 (by decide)
theorem past0_arg10 (c : Dev nD) : W4 m ρ c (Proc.devRef .tc main_arg10) = W3 m ρ c (Proc.devRef .tc main_arg10) := W4_of_ne m ρ c main_arg10 (by decide)
theorem past0_arg11 (c : Dev nD) : W4 m ρ c (Proc.devRef .tc main_arg11) = W3 m ρ c (Proc.devRef .tc main_arg11) := W4_of_ne m ρ c main_arg11 (by decide)

/-! ## Between the first and the second pallas_call -/

/-- The mean of the neighbours' rows of the first layer's output. -/
theorem entry1_mean (c : Dev nD) :
    V7 m ρ c main_v54 = Cert.Sage.meanAgg (W4 m ρ c (Proc.devRef .tc main_v33)) (W4 m ρ c (Proc.devRef .tc main_v1)) (W4 m ρ c (Proc.devRef .tc main_v3)) := by
  show W7 m ρ c (Proc.devRef .tc main_v54) = _
  dsimp only [W7, W6, W5]; simp only [hostOps1, hostOps1_1, hostOps1_2]
  after_results_simp
  rfl

/-- The first layer's output itself. -/
theorem entry1_x (c : Dev nD) : V7 m ρ c main_v33 = (W4 m ρ c (Proc.devRef .tc main_v33)) := by
  show W7 m ρ c (Proc.devRef .tc main_v33) = _
  dsimp only [W7, W6, W5]; simp only [hostOps1, hostOps1_1, hostOps1_2]
  after_results_simp

/-- The second layer's bias, reshaped to one row. -/
theorem entry1_bias (c : Dev nD) : V7 m ρ c main_v55 = shapeCast _ (W4 m ρ c (Proc.devRef .tc main_arg8)) shapeCasts_S64_S1x64 := by
  show W7 m ρ c (Proc.devRef .tc main_v55) = _
  dsimp only [W7, W6, W5]; simp only [hostOps1, hostOps1_1, hostOps1_2]
  after_results_simp
  rfl

theorem stage1_arg2 (c : Dev nD) : W7 m ρ c (Proc.devRef .tc main_arg2) = (W4 m ρ c (Proc.devRef .tc main_arg2)) := by
  dsimp only [W7, W6, W5]; simp only [hostOps1, hostOps1_1, hostOps1_2]
  after_results_simp

theorem stage1_arg7 (c : Dev nD) : W7 m ρ c (Proc.devRef .tc main_arg7) = (W4 m ρ c (Proc.devRef .tc main_arg7)) := by
  dsimp only [W7, W6, W5]; simp only [hostOps1, hostOps1_1, hostOps1_2]
  after_results_simp

theorem stage1_arg9 (c : Dev nD) : W7 m ρ c (Proc.devRef .tc main_arg9) = (W4 m ρ c (Proc.devRef .tc main_arg9)) := by
  dsimp only [W7, W6, W5]; simp only [hostOps1, hostOps1_1, hostOps1_2]
  after_results_simp

theorem stage1_arg10 (c : Dev nD) : W7 m ρ c (Proc.devRef .tc main_arg10) = (W4 m ρ c (Proc.devRef .tc main_arg10)) := by
  dsimp only [W7, W6, W5]; simp only [hostOps1, hostOps1_1, hostOps1_2]
  after_results_simp

theorem stage1_arg11 (c : Dev nD) : W7 m ρ c (Proc.devRef .tc main_arg11) = (W4 m ρ c (Proc.devRef .tc main_arg11)) := by
  dsimp only [W7, W6, W5]; simp only [hostOps1, hostOps1_1, hostOps1_2]
  after_results_simp

/-! ## The second pallas_call -/

theorem out1 (c : Dev nD) : W8 m ρ c (Proc.devRef .tc main_v56) = (dat1 (V7 m ρ) c).arrAt 5 cfg1.N := W8_arr m ρ c 5
theorem past1_arg2 (c : Dev nD) : W8 m ρ c (Proc.devRef .tc main_arg2) = W7 m ρ c (Proc.devRef .tc main_arg2) := W8_of_ne m ρ c main_arg2 (by decide)
theorem past1_arg10 (c : Dev nD) : W8 m ρ c (Proc.devRef .tc main_arg10) = W7 m ρ c (Proc.devRef .tc main_arg10) := W8_of_ne m ρ c main_arg10 (by decide)
theorem past1_arg11 (c : Dev nD) : W8 m ρ c (Proc.devRef .tc main_arg11) = W7 m ρ c (Proc.devRef .tc main_arg11) := W8_of_ne m ρ c main_arg11 (by decide)

/-! ## Between the second and the last pallas_call -/

/-- The mean per graph of the second layer's output. -/
theorem entry2_pooled (c : Dev nD) : V11 m ρ c main_v70 = Cert.Sage.pool (W8 m ρ c (Proc.devRef .tc main_v56)) (W8 m ρ c (Proc.devRef .tc main_arg2)) := by
  show W11 m ρ c (Proc.devRef .tc main_v70) = _
  dsimp only [W11, W10, W9]; simp only [hostOps2, hostOps2_1, hostOps2_2]
  after_results_simp
  rfl

theorem entry2_W (c : Dev nD) : V11 m ρ c main_arg10 = (W8 m ρ c (Proc.devRef .tc main_arg10)) := by
  show W11 m ρ c (Proc.devRef .tc main_arg10) = _
  dsimp only [W11, W10, W9]; simp only [hostOps2, hostOps2_1, hostOps2_2]
  after_results_simp

/-- The last bias, reshaped to one row. -/
theorem entry2_bias (c : Dev nD) : V11 m ρ c main_v71 = shapeCast _ (W8 m ρ c (Proc.devRef .tc main_arg11)) shapeCasts_S2_S1x2 := by
  show W11 m ρ c (Proc.devRef .tc main_v71) = _
  dsimp only [W11, W10, W9]; simp only [hostOps2, hostOps2_1, hostOps2_2]
  after_results_simp
  rfl

/-! ## The last pallas_call -/

theorem out2 (c : Dev nD) : W12 m ρ c (Proc.devRef .tc main_v72) = (dat2 (V11 m ρ) c).arrAt 3 cfg2.N := W12_arr m ρ c 3

end Cert.KernelIdeal.HostStages

end
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.LayerValue0.lean ====
/-
  The first graph layer's kernel, read as a value: its grid has 20 points, point t holding rows 5000·t … 5000·t + 4999 of
  the two [100000, 64] inputs (the neighbours' mean and the nodes' own rows) and of the output, the two [64, 64] weight
  matrices and the [1, 64] bias row whole. On a block the body computes, at entry (r, q),
  max(((Σ_k mean(r,k)·W_l(k,q)) + b(0,q)) + Σ_k x(r,k)·W_r(k,q), 0) on the extended reals (the narrowing of the operands
  is the identity there), which is the same expression of the arrays' rows 5000·t + r; every row lies in the block of
  the point row / 5000, and every point writes its block back, so the output array ends as the layer of the input arrays.
-/
import proofs.«104735_j88648124990794_1_alg».proof.Proof.Gen.KernelIdeal.Frame
import proofs.«104735_j88648124990794_1_alg».proof.Proof.Net
import proofs.«104735_j88648124990794_1_alg».proof.Proof.LibRowOps
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384

noncomputable section

open scoped BigOperators
open Idealize.ShloMosaic Idealize.ShloMosaic.TcCoe Idealize.SL.Sem

namespace Cert.Sage.Region0

open Cert.KernelIdeal Cert.KernelIdeal.Gen
open Idealize.ShloMosaic.ValueIdx

/-- Entry (a, q) of one graph layer over M rows: max(((Σ_k mean(a,k)·W_l(k,q)) + b(0,q)) + Σ_k x(a,k)·W_r(k,q), 0),
    on the extended reals, the sums over the 64 columns, in this association. -/
def entry {M : Nat} (mean x : FVec Ideal ⟨2, ![M, 64]⟩ .f32) (Wl : FVec Ideal ⟨2, ![64, 64]⟩ .f32)
    (b : FVec Ideal ⟨2, ![1, 64]⟩ .f32) (Wr : FVec Ideal ⟨2, ![64, 64]⟩ .f32) (a : Fin M) (q : Fin 64) : EReal :=
  max (((∑ k : Fin 64, mean (ix2 a k) * Wl (ix2 k q)) + b (ix2 (0 : Fin 1) q)) + ∑ k : Fin 64, x (ix2 a k) * Wr (ix2 k q))
    (Ideal.ofBits .f32 0x00000000#32)

/-- The layer as the host states it, read at entry (a, q): the pointwise operations at the entry, each product the sum of
    products, the bias row laid along every row, the zero laid everywhere. -/
theorem layer2d_apply (mean x : FVec Ideal ⟨2, ![100000, 64]⟩ .f32) (Wl : FVec Ideal ⟨2, ![64, 64]⟩ .f32)
    (b : FVec Ideal ⟨2, ![1, 64]⟩ .f32) (Wr : FVec Ideal ⟨2, ![64, 64]⟩ .f32) (a : Fin 100000) (q : Fin 64) :
    Cert.Sage.layer2d (F := Ideal) mean x Wl b Wr (ix2 a q) = entry mean x Wl b Wr a q := by
  unfold Cert.Sage.layer2d entry
  rw [maximumf_apply, addf_apply, addf_apply,
    RowOps.dotGeneral_apply Cert.ReferenceIdeal.dot_S100000x64_S64x64_S100000x64_1_0_0_1_n_n rfl,
    RowOps.dotGeneral_apply Cert.ReferenceIdeal.dot_S100000x64_S64x64_S100000x64_1_0_0_1_n_n rfl,
    broadcastInDim_oneRow_apply, broadcastInDim_scalar_apply, constant_apply]

/-- The kernel body's arithmetic on one block of 5000 rows, read at entry (r, q) of the block: the narrowing of the
    operands is the identity on the extended reals, each product into a zero accumulator is the sum of products. -/
theorem payload_apply (x0 x1 : Vec Ideal S5000x64 .f32) (x2 : Vec Ideal S64x64 .f32) (x3 : Vec Ideal S1x64 .f32)
    (x4 : Vec Ideal S64x64 .f32) (r : Fin 5000) (q : Fin 64) :
    k0_pay1 (F := Ideal) x0 x1 x2 x4 x3 (ix2 r q) = entry x0 x1 x2 x3 x4 r q := by
  unfold k0_pay1 entry
  simp only [shapeCast_self]
  rw [maximumf_apply, addf_apply, addf_apply, RowOps.matmul_apply dot_S5000x64_S64x64_S5000x64_1_0_0_1_n_n rfl, RowOps.matmul_apply dot_S5000x64_S64x64_S5000x64_1_0_0_1_n_n rfl,
    broadcastTo_1b_ab_apply, broadcast_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The windows' index maps over the grid: at point t the blocks of the two row-blocked inputs and of the output are
    row-block t, column-block 0; the two weight matrices and the bias row are whole (block 0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of the block of the first input (the neighbours' mean) at point t is row 5000·t + r of the array. -/
theorem mean_blk_apply (c : Dev nD) (t : Fin cfg0.N) (r : Fin 5000) (k : Fin 64) (a : Fin 100000)
    (ha : a.val = t.val * 5000 + r.val) :
    (iblk0 V c 0 t : Vec Ideal S5000x64 .f32) (ix2 r k) = (V c main_v31 : S100000x64.Idx → Elt Ideal .f32) (ix2 a k) := by
  obtain ⟨e0, e1, -⟩ := idx_facts t
  unfold iblk0
  rw [View.read_apply]
  show V c main_v31 _ = V c main_v31 _
  congr 1
  funext ax
  apply Fin.ext
  match ax with
  | ⟨0, _⟩ => show win0_0.index t (0 : Fin 2) * 5000 + 1 * r.val = a.val; rw [e0, ha]; omega
  | ⟨1, _⟩ => show win0_0.index t (1 : Fin 2) * 64 + 1 * k.val = k.val; rw [e1]; omega

/-- Row r of the block of the second input (the nodes' own rows) at point t is row 5000·t + r of the array. -/
theorem self_blk_apply (c : Dev nD) (t : Fin cfg0.N) (r : Fin 5000) (k : Fin 64) (a : Fin 100000)
    (ha : a.val = t.val * 5000 + r.val) :
    (iblk0 V c 1 t : Vec Ideal S5000x64 .f32) (ix2 r k) = (V c main_v10 : S100000x64.Idx → Elt Ideal .f32) (ix2 a k) := by
  obtain ⟨-, -, e0, e1, -⟩ := idx_facts t
  unfold iblk0
  rw [View.read_apply]
  show V c main_v10 _ = V c main_v10 _
  congr 1
  funext ax
  apply Fin.ext
  match ax with
  | ⟨0, _⟩ => show win0_1.index t (0 : Fin 2) * 5000 + 1 * r.val = a.val; rw [e0, ha]; omega
  | ⟨1, _⟩ => show win0_1.index t (1 : Fin 2) * 64 + 1 * k.val = k.val; rw [e1]; omega

/-- The block of the left weight matrix at any point is the whole matrix. -/
theorem wl_blk_apply (c : Dev nD) (t : Fin cfg0.N) (k q : Fin 64) :
    (iblk0 V c 2 t : Vec Ideal S64x64 .f32) (ix2 k q) = (V c main_arg4 : S64x64.Idx → Elt Ideal .f32) (ix2 k q) := by
  obtain ⟨-, -, -, -, e0, e1, -⟩ := idx_facts t
  unfold iblk0
  rw [View.read_apply]
  show V c main_arg4 _ = V c main_arg4 _
  congr 1
  funext ax
  apply Fin.ext
  match ax with
  | ⟨0, _⟩ => show win0_2.index t (0 : Fin 2) * 64 + 1 * k.val = k.val; rw [e0]; omega
  | ⟨1, _⟩ => show win0_2.index t (1 : Fin 2) * 64 + 1 * q.val = q.val; rw [e1]; omega

/-- The block of the bias row at any point is the whole row. -/
theorem bias_blk_apply (c : Dev nD) (t : Fin cfg0.N) (z : Fin 1) (q : Fin 64) :
    (iblk0 V c 3 t : Vec Ideal S1x64 .f32) (ix2 z q) = (V c main_v32 : S1x64.Idx → Elt Ideal .f32) (ix2 z q) := by
  obtain ⟨-, -, -, -, -, -, e0, e1, -⟩ := idx_facts t
  unfold iblk0
  rw [View.read_apply]
  show V c main_v32 _ = V c main_v32 _
  congr 1
  funext ax
  apply Fin.ext
  match ax with
  | ⟨0, _⟩ => show win0_3.index t (0 : Fin 2) * 1 + 1 * z.val = z.val; rw [e0]; omega
  | ⟨1, _⟩ => show win0_3.index t (1 : Fin 2) * 64 + 1 * q.val = q.val; rw [e1]; omega

/-- The block of the right weight matrix at any point is the whole matrix. -/
theorem wr_blk_apply (c : Dev nD) (t : Fin cfg0.N) (k q : Fin 64) :
    (iblk0 V c 4 t : Vec Ideal S64x64 .f32) (ix2 k q) = (V c main_arg6 : S64x64.Idx → Elt Ideal .f32) (ix2 k q) := by
  obtain ⟨-, -, -, -, -, -, -, -, e0, e1, -⟩ := idx_facts t
  unfold iblk0
  rw [View.read_apply]
  show V c main_arg6 _ = V c main_arg6 _
  congr 1
  funext ax
  apply Fin.ext
  match ax with
  | ⟨0, _⟩ => show win0_4.index t (0 : Fin 2) * 64 + 1 * k.val = k.val; rw [e0]; omega
  | ⟨1, _⟩ => show win0_4.index t (1 : Fin 2) * 64 + 1 * q.val = q.val; rw [e1]; omega

/-- The layer on the block's rows is the layer on the array's rows 5000·t + r: each input block read where it sits. -/
theorem entry_blk (c : Dev nD) (t : Fin cfg0.N) (r : Fin 5000) (q : Fin 64) (a : Fin 100000)
    (ha : a.val = t.val * 5000 + r.val) :
    entry (iblk0 V c 0 t : Vec Ideal S5000x64 .f32) (iblk0 V c 1 t : Vec Ideal S5000x64 .f32) (iblk0 V c 2 t : Vec Ideal S64x64 .f32)
        (iblk0 V c 3 t : Vec Ideal S1x64 .f32) (iblk0 V c 4 t : Vec Ideal S64x64 .f32) r q
      = entry (V c main_v31 : S100000x64.Idx → Elt Ideal .f32) (V c main_v10 : S100000x64.Idx → Elt Ideal .f32)
          (V c main_arg4 : S64x64.Idx → Elt Ideal .f32) (V c main_v32 : S1x64.Idx → Elt Ideal .f32)
          (V c main_arg6 : S64x64.Idx → Elt Ideal .f32) a q := by
  unfold entry
  simp only [mean_blk_apply V c t r _ a ha, self_blk_apply V c t r _ a ha, wl_blk_apply V c t, bias_blk_apply V c t, wr_blk_apply V c t]

/-- The layer of the arrays the region finds, as one function of the output array's index. -/
def layerOf (c : Dev nD) : S100000x64.Idx → Elt Ideal .f32 := fun i =>
  entry (V c main_v31 : S100000x64.Idx → Elt Ideal .f32) (V c main_v10 : S100000x64.Idx → Elt Ideal .f32)
    (V c main_arg4 : S64x64.Idx → Elt Ideal .f32) (V c main_v32 : S1x64.Idx → Elt Ideal .f32)
    (V c main_arg6 : S64x64.Idx → Elt Ideal .f32) (i 0) (i 1)

/-- What point t writes back is block t of the layer of the arrays the region finds. -/
theorem flushed_eq (c : Dev nD) (t : Fin cfg0.N) :
    (dat0 (F := Ideal) V c).flushed 5 t = ((cfg0.win 5).blk t).view.read (Elt Ideal) (layerOf V c) := by
  show (cfg0.win 5).cut (grid0.coords t) ((dat0 (F := Ideal) V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨-, -, -, -, -, -, -, -, -, -, e0, e1⟩ := idx_facts t
  have ht : t.val < 20 := by have h := t.isLt; have hN : cfg0.N = 20 := N_0; omega
  funext j
  obtain ⟨r, q, rfl⟩ : ∃ (r : Fin 5000) (q : Fin 64), j = ix2 r q := ⟨j 0, j 1, eq_ix2 j⟩
  have hemb : ((cfg0.win 5).blk t).view.emb (ix2 r q) = ix2 (⟨t.val * 5000 + r.val, by have := r.isLt; omega⟩ : Fin 100000) q := by
    funext ax
    apply Fin.ext
    match ax with
    | ⟨0, _⟩ => show win0_5.index t (0 : Fin 2) * 5000 + 1 * r.val = t.val * 5000 + r.val; rw [e0]; omega
    | ⟨1, _⟩ => show win0_5.index t (1 : Fin 2) * 64 + 1 * q.val = q.val; rw [e1]; omega
  rw [View.read_apply]
  show k0_pay1 (F := Ideal) (iblk0 V c 0 t) (iblk0 V c 1 t) (iblk0 V c 2 t) (iblk0 V c 4 t) (iblk0 V c 3 t) (ix2 r q)
    = layerOf V c (((cfg0.win 5).blk t).view.emb (ix2 r q))
  rw [hemb, payload_apply]
  exact entry_blk V c t r q _ rfl

/-- An index of the output array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v33).slice (win0_5.rect t)).set ↔ _
  rw [View.set_slice_whole, Rect.mem_set_unit]
  exact Iff.rfl

/-- Every row of the output array lies in the block of the point row / 5000, and every point writes back. -/
theorem cover (i : S100000x64.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 64 := (i 1).isLt
  have hlt : (i 0).val / 5000 < cfg0.N := by rw [hN]; omega
  obtain ⟨-, -, -, -, -, -, -, -, -, -, e0, e1⟩ := idx_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 64 ≤ (i 1).val ∧ (i 1).val < win0_5.index ⟨(i 0).val / 5000, hlt⟩ (1 : Fin 2) * 64 + 64
    rw [e1]
    omega

/-- The output array after the region's run is the layer of the arrays the region finds. -/
theorem arr_eq_layerOf (c : Dev nD) : (dat0 (F := Ideal) V c).arrAt 5 cfg0.N = layerOf V c :=
  (dat0 (F := Ideal) V c).arrAt_eq_of_cover 5 (layerOf V c) (fun t _ => flushed_eq V c t) (fun i => cover i)

/-- The layer of the arrays the region finds is the host's layer of them. -/
theorem layerOf_eq (c : Dev nD) :
    layerOf V c = Cert.Sage.layer2d (F := Ideal) (V c main_v31) (V c main_v10) (V c main_arg4) (V c main_v32) (V c main_arg6) := by
  funext i
  obtain ⟨a, q, rfl⟩ : ∃ (a : Fin 100000) (q : Fin 64), i = ix2 a q := ⟨i 0, i 1, eq_ix2 i⟩
  exact (layer2d_apply _ _ _ _ _ a q).symm

end Cert.Sage.Region0

namespace Cert.Sage.Region0

open Cert.KernelIdeal Cert.KernelIdeal.Gen

/-- Region 0: the output array after the run is one graph layer of the arrays the region finds. -/
theorem region0_value (V : (c : Dev nD) → (b : Ref sig .tc) → Buf (Elt Ideal) ((c : Thread nD τ).loc b)) (c : Dev nD) :
    (dat0 (F := Ideal) V c).arrAt 5 cfg0.N
      = Cert.Sage.layer2d (F := Ideal) (V c main_v31) (V c main_v10) (V c main_arg4) (V c main_v32) (V c main_arg6) :=
  (arr_eq_layerOf V c).trans (layerOf_eq V c)

end Cert.Sage.Region0

end
-- ==== Proof.LayerValue1.lean ====
/-
  The second graph layer's kernel, read as a value: its grid has 20 points, point t holding rows 5000·t … 5000·t + 4999 of
  the two [100000, 64] inputs (the neighbours' mean and the nodes' own rows) and of the output, the two [64, 64] weight
  matrices and the [1, 64] bias row whole. On a block the body computes, at entry (r, q),
  max(((Σ_k mean(r,k)·W_l(k,q)) + b(0,q)) + Σ_k x(r,k)·W_r(k,q), 0) on the extended reals (the narrowing of the operands
  is the identity there), which is the same expression of the arrays' rows 5000·t + r; every row lies in the block of
  the point row / 5000, and every point writes its block back, so the output array ends as the layer of the input arrays.
-/
import proofs.«104735_j88648124990794_1_alg».proof.Proof.Gen.KernelIdeal.Frame
import proofs.«104735_j88648124990794_1_alg».proof.Proof.Net
import proofs.«104735_j88648124990794_1_alg».proof.Proof.LibRowOps
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost

set_option maxRecDepth 16384

noncomputable section

open scoped BigOperators
open Idealize.ShloMosaic Idealize.ShloMosaic.TcCoe Idealize.SL.Sem

namespace Cert.Sage.Region1

open Cert.KernelIdeal Cert.KernelIdeal.Gen
open Idealize.ShloMosaic.ValueIdx

/-- Entry (a, q) of one graph layer over M rows: max(((Σ_k mean(a,k)·W_l(k,q)) + b(0,q)) + Σ_k x(a,k)·W_r(k,q), 0),
    on the extended reals, the sums over the 64 columns, in this association. -/
def entry {M : Nat} (mean x : FVec Ideal ⟨2, ![M, 64]⟩ .f32) (Wl : FVec Ideal ⟨2, ![64, 64]⟩ .f32)
    (b : FVec Ideal ⟨2, ![1, 64]⟩ .f32) (Wr : FVec Ideal ⟨2, ![64, 64]⟩ .f32) (a : Fin M) (q : Fin 64) : EReal :=
  max (((∑ k : Fin 64, mean (ix2 a k) * Wl (ix2 k q)) + b (ix2 (0 : Fin 1) q)) + ∑ k : Fin 64, x (ix2 a k) * Wr (ix2 k q))
    (Ideal.ofBits .f32 0x00000000#32)

/-- The layer as the host states it, read at entry (a, q): the pointwise operations at the entry, each product the sum of
    products, the bias row laid along every row, the zero laid everywhere. -/
theorem layer2d_apply (mean x : FVec Ideal ⟨2, ![100000, 64]⟩ .f32) (Wl : FVec Ideal ⟨2, ![64, 64]⟩ .f32)
    (b : FVec Ideal ⟨2, ![1, 64]⟩ .f32) (Wr : FVec Ideal ⟨2, ![64, 64]⟩ .f32) (a : Fin 100000) (q : Fin 64) :
    Cert.Sage.layer2d (F := Ideal) mean x Wl b Wr (ix2 a q) = entry mean x Wl b Wr a q := by
  unfold Cert.Sage.layer2d entry
  rw [maximumf_apply, addf_apply, addf_apply,
    RowOps.dotGeneral_apply Cert.ReferenceIdeal.dot_S100000x64_S64x64_S100000x64_1_0_0_1_n_n rfl,
    RowOps.dotGeneral_apply Cert.ReferenceIdeal.dot_S100000x64_S64x64_S100000x64_1_0_0_1_n_n rfl,
    broadcastInDim_oneRow_apply, broadcastInDim_scalar_apply, constant_apply]

/-- The kernel body's arithmetic on one block of 5000 rows, read at entry (r, q) of the block: the narrowing of the
    operands is the identity on the extended reals, each product into a zero accumulator is the sum of products. -/
theorem payload_apply (x0 x1 : Vec Ideal S5000x64 .f32) (x2 : Vec Ideal S64x64 .f32) (x3 : Vec Ideal S1x64 .f32)
    (x4 : Vec Ideal S64x64 .f32) (r : Fin 5000) (q : Fin 64) :
    k1_pay1 (F := Ideal) x0 x1 x2 x4 x3 (ix2 r q) = entry x0 x1 x2 x3 x4 r q := by
  unfold k1_pay1 entry
  simp only [shapeCast_self]
  rw [maximumf_apply, addf_apply, addf_apply, RowOps.matmul_apply dot_S5000x64_S64x64_S5000x64_1_0_0_1_n_n rfl, RowOps.matmul_apply dot_S5000x64_S64x64_S5000x64_1_0_0_1_n_n rfl,
    broadcastTo_1b_ab_apply, broadcast_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The windows' index maps over the grid: at point t the blocks of the two row-blocked inputs and of the output are
    row-block t, column-block 0; the two weight matrices and the bias row are whole (block 0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of the block of the first input (the neighbours' mean) at point t is row 5000·t + r of the array. -/
theorem mean_blk_apply (c : Dev nD) (t : Fin cfg1.N) (r : Fin 5000) (k : Fin 64) (a : Fin 100000)
    (ha : a.val = t.val * 5000 + r.val) :
    (iblk1 V c 0 t : Vec Ideal S5000x64 .f32) (ix2 r k) = (V c main_v54 : S100000x64.Idx → Elt Ideal .f32) (ix2 a k) := by
  obtain ⟨e0, e1, -⟩ := idx_facts t
  unfold iblk1
  rw [View.read_apply]
  show V c main_v54 _ = V c main_v54 _
  congr 1
  funext ax
  apply Fin.ext
  match ax with
  | ⟨0, _⟩ => show win1_0.index t (0 : Fin 2) * 5000 + 1 * r.val = a.val; rw [e0, ha]; omega
  | ⟨1, _⟩ => show win1_0.index t (1 : Fin 2) * 64 + 1 * k.val = k.val; rw [e1]; omega

/-- Row r of the block of the second input (the nodes' own rows) at point t is row 5000·t + r of the array. -/
theorem self_blk_apply (c : Dev nD) (t : Fin cfg1.N) (r : Fin 5000) (k : Fin 64) (a : Fin 100000)
    (ha : a.val = t.val * 5000 + r.val) :
    (iblk1 V c 1 t : Vec Ideal S5000x64 .f32) (ix2 r k) = (V c main_v33 : S100000x64.Idx → Elt Ideal .f32) (ix2 a k) := by
  obtain ⟨-, -, e0, e1, -⟩ := idx_facts t
  unfold iblk1
  rw [View.read_apply]
  show V c main_v33 _ = V c main_v33 _
  congr 1
  funext ax
  apply Fin.ext
  match ax with
  | ⟨0, _⟩ => show win1_1.index t (0 : Fin 2) * 5000 + 1 * r.val = a.val; rw [e0, ha]; omega
  | ⟨1, _⟩ => show win1_1.index t (1 : Fin 2) * 64 + 1 * k.val = k.val; rw [e1]; omega

/-- The block of the left weight matrix at any point is the whole matrix. -/
theorem wl_blk_apply (c : Dev nD) (t : Fin cfg1.N) (k q : Fin 64) :
    (iblk1 V c 2 t : Vec Ideal S64x64 .f32) (ix2 k q) = (V c main_arg7 : S64x64.Idx → Elt Ideal .f32) (ix2 k q) := by
  obtain ⟨-, -, -, -, e0, e1, -⟩ := idx_facts t
  unfold iblk1
  rw [View.read_apply]
  show V c main_arg7 _ = V c main_arg7 _
  congr 1
  funext ax
  apply Fin.ext
  match ax with
  | ⟨0, _⟩ => show win1_2.index t (0 : Fin 2) * 64 + 1 * k.val = k.val; rw [e0]; omega
  | ⟨1, _⟩ => show win1_2.index t (1 : Fin 2) * 64 + 1 * q.val = q.val; rw [e1]; omega

/-- The block of the bias row at any point is the whole row. -/
theorem bias_blk_apply (c : Dev nD) (t : Fin cfg1.N) (z : Fin 1) (q : Fin 64) :
    (iblk1 V c 3 t : Vec Ideal S1x64 .f32) (ix2 z q) = (V c main_v55 : S1x64.Idx → Elt Ideal .f32) (ix2 z q) := by
  obtain ⟨-, -, -, -, -, -, e0, e1, -⟩ := idx_facts t
  unfold iblk1
  rw [View.read_apply]
  show V c main_v55 _ = V c main_v55 _
  congr 1
  funext ax
  apply Fin.ext
  match ax with
  | ⟨0, _⟩ => show win1_3.index t (0 : Fin 2) * 1 + 1 * z.val = z.val; rw [e0]; omega
  | ⟨1, _⟩ => show win1_3.index t (1 : Fin 2) * 64 + 1 * q.val = q.val; rw [e1]; omega

/-- The block of the right weight matrix at any point is the whole matrix. -/
theorem wr_blk_apply (c : Dev nD) (t : Fin cfg1.N) (k q : Fin 64) :
    (iblk1 V c 4 t : Vec Ideal S64x64 .f32) (ix2 k q) = (V c main_arg9 : S64x64.Idx → Elt Ideal .f32) (ix2 k q) := by
  obtain ⟨-, -, -, -, -, -, -, -, e0, e1, -⟩ := idx_facts t
  unfold iblk1
  rw [View.read_apply]
  show V c main_arg9 _ = V c main_arg9 _
  congr 1
  funext ax
  apply Fin.ext
  match ax with
  | ⟨0, _⟩ => show win1_4.index t (0 : Fin 2) * 64 + 1 * k.val = k.val; rw [e0]; omega
  | ⟨1, _⟩ => show win1_4.index t (1 : Fin 2) * 64 + 1 * q.val = q.val; rw [e1]; omega

/-- The layer on the block's rows is the layer on the array's rows 5000·t + r: each input block read where it sits. -/
theorem entry_blk (c : Dev nD) (t : Fin cfg1.N) (r : Fin 5000) (q : Fin 64) (a : Fin 100000)
    (ha : a.val = t.val * 5000 + r.val) :
    entry (iblk1 V c 0 t : Vec Ideal S5000x64 .f32) (iblk1 V c 1 t : Vec Ideal S5000x64 .f32) (iblk1 V c 2 t : Vec Ideal S64x64 .f32)
        (iblk1 V c 3 t : Vec Ideal S1x64 .f32) (iblk1 V c 4 t : Vec Ideal S64x64 .f32) r q
      = entry (V c main_v54 : S100000x64.Idx → Elt Ideal .f32) (V c main_v33 : S100000x64.Idx → Elt Ideal .f32)
          (V c main_arg7 : S64x64.Idx → Elt Ideal .f32) (V c main_v55 : S1x64.Idx → Elt Ideal .f32)
          (V c main_arg9 : S64x64.Idx → Elt Ideal .f32) a q := by
  unfold entry
  simp only [mean_blk_apply V c t r _ a ha, self_blk_apply V c t r _ a ha, wl_blk_apply V c t, bias_blk_apply V c t, wr_blk_apply V c t]

/-- The layer of the arrays the region finds, as one function of the output array's index. -/
def layerOf (c : Dev nD) : S100000x64.Idx → Elt Ideal .f32 := fun i =>
  entry (V c main_v54 : S100000x64.Idx → Elt Ideal .f32) (V c main_v33 : S100000x64.Idx → Elt Ideal .f32)
    (V c main_arg7 : S64x64.Idx → Elt Ideal .f32) (V c main_v55 : S1x64.Idx → Elt Ideal .f32)
    (V c main_arg9 : S64x64.Idx → Elt Ideal .f32) (i 0) (i 1)

/-- What point t writes back is block t of the layer of the arrays the region finds. -/
theorem flushed_eq (c : Dev nD) (t : Fin cfg1.N) :
    (dat1 (F := Ideal) V c).flushed 5 t = ((cfg1.win 5).blk t).view.read (Elt Ideal) (layerOf V c) := by
  show (cfg1.win 5).cut (grid1.coords t) ((dat1 (F := Ideal) V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨-, -, -, -, -, -, -, -, -, -, e0, e1⟩ := idx_facts t
  have ht : t.val < 20 := by have h := t.isLt; have hN : cfg1.N = 20 := N_1; omega
  funext j
  obtain ⟨r, q, rfl⟩ : ∃ (r : Fin 5000) (q : Fin 64), j = ix2 r q := ⟨j 0, j 1, eq_ix2 j⟩
  have hemb : ((cfg1.win 5).blk t).view.emb (ix2 r q) = ix2 (⟨t.val * 5000 + r.val, by have := r.isLt; omega⟩ : Fin 100000) q := by
    funext ax
    apply Fin.ext
    match ax with
    | ⟨0, _⟩ => show win1_5.index t (0 : Fin 2) * 5000 + 1 * r.val = t.val * 5000 + r.val; rw [e0]; omega
    | ⟨1, _⟩ => show win1_5.index t (1 : Fin 2) * 64 + 1 * q.val = q.val; rw [e1]; omega
  rw [View.read_apply]
  show k1_pay1 (F := Ideal) (iblk1 V c 0 t) (iblk1 V c 1 t) (iblk1 V c 2 t) (iblk1 V c 4 t) (iblk1 V c 3 t) (ix2 r q)
    = layerOf V c (((cfg1.win 5).blk t).view.emb (ix2 r q))
  rw [hemb, payload_apply]
  exact entry_blk V c t r q _ rfl

/-- An index of the output array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v56).slice (win1_5.rect t)).set ↔ _
  rw [View.set_slice_whole, Rect.mem_set_unit]
  exact Iff.rfl

/-- Every row of the output array lies in the block of the point row / 5000, and every point writes back. -/
theorem cover (i : S100000x64.Idx) :
    ∃ t : Fin cfg1.N, (cfg1.win 5).flush t = true ∧ i ∈ ((cfg1.win 5).blk t).view.set := by
  have hN : cfg1.N = 20 := N_1
  have hi0 : (i 0).val < 100000 := (i 0).isLt
  have hi1 : (i 1).val < 64 := (i 1).isLt
  have hlt : (i 0).val / 5000 < cfg1.N := by rw [hN]; omega
  obtain ⟨-, -, -, -, -, -, -, -, -, -, e0, e1⟩ := idx_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ (1 : Fin 2) * 64 ≤ (i 1).val ∧ (i 1).val < win1_5.index ⟨(i 0).val / 5000, hlt⟩ (1 : Fin 2) * 64 + 64
    rw [e1]
    omega

/-- The output array after the region's run is the layer of the arrays the region finds. -/
theorem arr_eq_layerOf (c : Dev nD) : (dat1 (F := Ideal) V c).arrAt 5 cfg1.N = layerOf V c :=
  (dat1 (F := Ideal) V c).arrAt_eq_of_cover 5 (layerOf V c) (fun t _ => flushed_eq V c t) (fun i => cover i)

/-- The layer of the arrays the region finds is the host's layer of them. -/
theorem layerOf_eq (c : Dev nD) :
    layerOf V c = Cert.Sage.layer2d (F := Ideal) (V c main_v54) (V c main_v33) (V c main_arg7) (V c main_v55) (V c main_arg9) := by
  funext i
  obtain ⟨a, q, rfl⟩ : ∃ (a : Fin 100000) (q : Fin 64), i = ix2 a q := ⟨i 0, i 1, eq_ix2 i⟩
  exact (layer2d_apply _ _ _ _ _ a q).symm

end Cert.Sage.Region1

namespace Cert.Sage.Region1

open Cert.KernelIdeal Cert.KernelIdeal.Gen

/-- Region 1: the output array after the run is one graph layer of the arrays the region finds. -/
theorem region1_value (V : (c : Dev nD) → (b : Ref sig .tc) → Buf (Elt Ideal) ((c : Thread nD τ).loc b)) (c : Dev nD) :
    (dat1 (F := Ideal) V c).arrAt 5 cfg1.N
      = Cert.Sage.layer2d (F := Ideal) (V c main_v54) (V c main_v33) (V c main_arg7) (V c main_v55) (V c main_arg9) :=
  (arr_eq_layerOf V c).trans (layerOf_eq V c)

end Cert.Sage.Region1

end
-- ==== Proof.FinalValue.lean ====
/-
  The last linear map, pooled · W + bias, as the third kernel call leaves it in its output array.
  The call has one grid point and every window is its whole array, so the one block of each operand is the operand
  itself and the one block written back is the whole result. Entry (a, q) of what the body stores is
  (Σ_k pooled(a, k) · W(k, q)) + bias(0, q), the sum over the 64 contracted coordinates: the product into a zero
  accumulator, with the one bias row laid along every row. The target function read at (a, q) is the same sum plus the
  same bias entry, so the stored block is the target function of the three operand arrays, and, the block covering every
  index, so is the array after the call.
-/
import proofs.«104735_j88648124990794_1_alg».proof.Proof.Gen.KernelIdeal.Frame
import proofs.«104735_j88648124990794_1_alg».proof.Proof.Net
import proofs.«104735_j88648124990794_1_alg».proof.Proof.LibRowOps
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.Sage.Region2

open Cert.KernelIdeal Cert.KernelIdeal.Gen

/-! ## One entry of the stored block and of the target -/

/-- Entry (a, q) of what the body stores: the row a of the pooled block against column q of W, summed over the 64
    contracted coordinates (the format changes before the product are the identity on extended reals, the accumulator
    is zero), plus entry q of the one bias row. -/
theorem pay_apply (x0 : Vec Ideal S512x64 .f32) (x1 : Vec Ideal S64x2 .f32) (x2 : Vec Ideal S1x2 .f32)
    (a : Fin 512) (q : Fin 2) :
    k2_pay1 (F := Ideal) x0 x1 x2 (ix2 a q)
      = (∑ k : Fin 64, x0 (ix2 a k) * x1 (ix2 k q)) + x2 (ix2 (0 : Fin 1) q) := by
  unfold k2_pay1
  rw [shapeCast_self, shapeCast_self]
  refine congrArg₂ (· + ·) ?_ ?_
  · exact RowOps.matmul_apply _ rfl none _ _ a q
  · exact broadcastTo_1b_ab_apply _ _ a q

/-- Entry (a, q) of the target: the same sum, plus the bias row's entry q (the row's unit axis read at 0). -/
theorem final_apply (p : (⟨Cert.ReferenceIdeal.S512x64, .f32⟩ : BufTy).Contents (Elt Ideal))
    (W : (⟨Cert.ReferenceIdeal.S64x2, .f32⟩ : BufTy).Contents (Elt Ideal))
    (b : (⟨Cert.ReferenceIdeal.S1x2, .f32⟩ : BufTy).Contents (Elt Ideal)) (a : Fin 512) (q : Fin 2) :
    Cert.Sage.final2d (F := Ideal) p W b (ix2 a q)
      = (∑ k : Fin 64, p (ix2 a k) * W (ix2 k q)) + b (ix2 (0 : Fin 1) q) := by
  unfold Cert.Sage.final2d
  refine congrArg₂ (· + ·) (RowOps.dotGeneral_apply _ rfl none p W a q) ?_
  refine broadcastInDim_apply _ _ b _ (ix2 (0 : Fin 1) q) fun ax => ?_
  match ax with
  | ⟨0, _⟩ => rfl
  | ⟨1, _⟩ => rfl

/-- So what the body stores is the target function of the three blocks it loads. -/
theorem pay_eq (x0 : Vec Ideal S512x64 .f32) (x1 : Vec Ideal S64x2 .f32) (x2 : Vec Ideal S1x2 .f32) :
    k2_pay1 (F := Ideal) x0 x1 x2 = Cert.Sage.final2d (F := Ideal) x0 x1 x2 := by
  funext j
  obtain ⟨a, q, rfl⟩ : ∃ (a : Fin 512) (q : Fin 2), j = ix2 a q := ⟨j 0, j 1, eq_ix2 j⟩
  rw [pay_apply, final_apply]

/-! ## From the one block to the array -/

variable (V : (c : Dev nD) → (b : Ref sig .tc) → Buf (Elt Ideal) ((c : Thread nD τ).loc b))

theorem hz : (![0, 0] : Fin 2 → Nat) = fun _ => 0 := funext fun a => by fin_cases a <;> rfl

/-- Every window's block index is 0 on both axes at every point of the grid. -/
theorem idx_zero : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The pooled operand's block is the whole pooled array: block (0, 0) of sizes [512, 64] read through zero offsets. -/
theorem iblk_0 (c : Dev nD) (t : Fin cfg2.N) : (iblk2 V c 0 t : Vec Ideal S512x64 .f32) = V c main_v70 := by
  obtain ⟨e0, e1, -⟩ := idx_zero t
  have hz' : (fun a => win2_0.index t a * main_v70.ty.shape.size a) = fun _ => 0 := funext fun a => by
    match a with
    | ⟨0, _⟩ => show win2_0.index t (0 : Fin 2) * _ = 0; rw [e0, Nat.zero_mul]
    | ⟨1, _⟩ => show win2_0.index t (1 : Fin 2) * _ = 0; rw [e1, Nat.zero_mul]
  unfold iblk2
  exact Memref.read_access_unit_zero (Elt Ideal) main_v70 hz' (fun a => by rw [congrFun hz' a]; simp) (V c main_v70)

/-- The block of W is the whole of W. -/
theorem iblk_1 (c : Dev nD) (t : Fin cfg2.N) : (iblk2 V c 1 t : Vec Ideal S64x2 .f32) = V c main_arg10 := by
  obtain ⟨-, -, e0, e1, -⟩ := idx_zero t
  have hz' : (fun a => win2_1.index t a * main_arg10.ty.shape.size a) = fun _ => 0 := funext fun a => by
    match a with
    | ⟨0, _⟩ => show win2_1.index t (0 : Fin 2) * _ = 0; rw [e0, Nat.zero_mul]
    | ⟨1, _⟩ => show win2_1.index t (1 : Fin 2) * _ = 0; rw [e1, Nat.zero_mul]
  unfold iblk2
  exact Memref.read_access_unit_zero (Elt Ideal) main_arg10 hz' (fun a => by rw [congrFun hz' a]; simp) (V c main_arg10)

/-- The block of the bias row is the whole row. -/
theorem iblk_2 (c : Dev nD) (t : Fin cfg2.N) : (iblk2 V c 2 t : Vec Ideal S1x2 .f32) = V c main_v71 := by
  obtain ⟨-, -, -, -, e0, e1, -⟩ := idx_zero t
  have hz' : (fun a => win2_2.index t a * main_v71.ty.shape.size a) = fun _ => 0 := funext fun a => by
    match a with
    | ⟨0, _⟩ => show win2_2.index t (0 : Fin 2) * _ = 0; rw [e0, Nat.zero_mul]
    | ⟨1, _⟩ => show win2_2.index t (1 : Fin 2) * _ = 0; rw [e1, Nat.zero_mul]
  unfold iblk2
  exact Memref.read_access_unit_zero (Elt Ideal) main_v71 hz' (fun a => by rw [congrFun hz' a]; simp) (V c main_v71)

/-- What a point writes back is its block of the target function of the three operand arrays: the body's one store
    covers its buffer, its loads read the whole operand blocks, and block (0, 0) of the [512, 2] result is the result. -/
theorem flushed_eq (c : Dev nD) (t : Fin cfg2.N) :
    (dat2 V c).flushed 3 t
      = ((cfg2.win 3).blk t).view.read (Elt Ideal)
          (Cert.Sage.final2d (F := Ideal) (V c main_v70) (V c main_arg10) (V c main_v71)) := by
  obtain ⟨-, -, -, -, -, -, e0, e1⟩ := idx_zero t
  have hz' : (fun a => win2_3.index t a * main_v72.ty.shape.size a) = fun _ => 0 := funext fun a => by
    match a with
    | ⟨0, _⟩ => show win2_3.index t (0 : Fin 2) * _ = 0; rw [e0, Nat.zero_mul]
    | ⟨1, _⟩ => show win2_3.index t (1 : Fin 2) * _ = 0; rw [e1, Nat.zero_mul]
  show (cfg2.win 3).cut (grid2.coords t) ((dat2 V c).after 3 t) = _
  rw [after2_3]
  unfold out2_3
  rw [View.canon_unit_zero hz]
  simp only [View.ld_unit_zero (S := S512x64) hz, View.ld_unit_zero (S := S64x2) hz, View.ld_unit_zero (S := S1x2) hz]
  rw [iblk_0, iblk_1, iblk_2, pay_eq]
  exact (Memref.read_access_unit_zero (Elt Ideal) main_v72 hz' (fun a => by rw [congrFun hz' a]; simp)
    (Cert.Sage.final2d (F := Ideal) (V c main_v70) (V c main_arg10) (V c main_v71))).symm

/-- THE ARRAY after the call: the one point's block covers every index, so the output array ends holding
    pooled · W + bias of the operand arrays as the call finds them. -/
theorem region2_value (V : (c : Dev nD) → (b : Ref sig .tc) → Buf (Elt Ideal) ((c : Thread nD τ).loc b)) (c : Dev nD) :
    (dat2 (F := Ideal) V c).arrAt 3 cfg2.N
      = Cert.Sage.final2d (F := Ideal) (V c main_v70) (V c main_arg10) (V c main_v71) :=
  (dat2 V c).arrAt_eq_of_cover 3 (Cert.Sage.final2d (F := Ideal) (V c main_v70) (V c main_arg10) (V c main_v71))
    (fun t _ => flushed_eq V c t) fun i =>
    ⟨t2_0, flush2_3 t2_0, by
      show i ∈ ((View.whole main_v72).slice (win2_3.rect t2_0)).set
      rw [View.set_slice_whole, Rect.mem_set_unit]
      intro a
      have h0 : (i 0 : Nat) < 512 := (i 0).isLt
      have h1 : (i 1 : Nat) < 2 := (i 1).isLt
      match a with
      | ⟨0, _⟩ =>
        show win2_3.index t2_0 0 * win2_3.size 0 ≤ (i 0 : Nat)
          ∧ (i 0 : Nat) < win2_3.index t2_0 0 * win2_3.size 0 + win2_3.xsize (grid2.coords t2_0) 0
        rw [show win2_3.index t2_0 0 * win2_3.size 0 = 0 from by decide +kernel,
          show win2_3.xsize (grid2.coords t2_0) 0 = 512 from by decide +kernel]
        omega
      | ⟨1, _⟩ =>
        show win2_3.index t2_0 1 * win2_3.size 1 ≤ (i 1 : Nat)
          ∧ (i 1 : Nat) < win2_3.index t2_0 1 * win2_3.size 1 + win2_3.xsize (grid2.coords t2_0) 1
        rw [show win2_3.index t2_0 1 * win2_3.size 1 = 0 from by decide +kernel,
          show win2_3.xsize (grid2.coords t2_0) 1 = 2 from by decide +kernel]
        omega⟩

end Cert.Sage.Region2

end
-- ==== Proof.BiasRow.lean ====
/-
  A vector reshaped to a one-row matrix is the vector laid along that row: entry (0, j) of the [1, n] matrix is entry j
  of the [n] vector, whether the matrix is obtained by a reshape (same elements in row-major order) or by a broadcast
  that puts the vector's one axis on the matrix's second axis. Stated for any extent and any element type, then at the
  two extents the network's biases have, 64 and 2.
-/
import proofs.«104735_j88648124990794_1_alg».proof.Proof.Gen.KernelIdeal
import proofs.«104735_j88648124990794_1_alg».proof.Proof.Gen.ReferenceIdeal
import Idealize.ShloMosaic.Lib.Pipeline.Value
import Idealize.ShloMosaic.Lib.ValueIdx
import Idealize.ShloMosaic.Lib.ValueLayout

noncomputable section

namespace Cert.Sage.BiasRow

open Idealize.ShloMosaic Idealize.ShloMosaic.ValueIdx

/-- A vector [n] reshaped to [1, n] equals the vector broadcast along axis 1 of [1, n]: both read entry j at (0, j). -/
theorem row_of_vec {α : Type} {n : Nat} (hc : (⟨1, ![n]⟩ : Shape).ShapeCasts ⟨2, ![1, n]⟩)
    (hb : (⟨1, ![n]⟩ : Shape).BroadcastsInDim ⟨2, ![1, n]⟩ (![1] : Fin 1 → Fin 2))
    (v : (⟨1, ![n]⟩ : Shape).Idx → α) :
    shapeCast ⟨2, ![1, n]⟩ v hc = broadcastInDim ⟨2, ![1, n]⟩ ![1] hb v := by
  funext j
  obtain ⟨u, i, rfl⟩ : ∃ (u : Fin 1) (i : Fin n), j = ix2 u i := ⟨j 0, j 1, eq_ix2 j⟩
  refine (shapeCast_a_1a_apply v hc u i).trans ?_
  refine (broadcastInDim_apply _ hb v _ (ix1 i) fun ax => ?_).symm
  match ax with
  | ⟨0, _⟩ =>
    show i.val = if n = 1 then 0 else i.val
    split
    · have := i.isLt; omega
    · rfl

variable {F : FTy → Type} [FloatOps F]

/-- The 64-entry bias reshaped to one row is the bias broadcast along the row. -/
theorem bias64 (b : (⟨Cert.ReferenceIdeal.S64, .f32⟩ : BufTy).Contents (Elt F)) :
    (shapeCast _ b Cert.KernelIdeal.Gen.shapeCasts_S64_S1x64 : (⟨Cert.ReferenceIdeal.S1x64, .f32⟩ : BufTy).Contents (Elt F))
      = broadcastInDim Cert.ReferenceIdeal.S1x64 ![1] Cert.ReferenceIdeal.Gen.bcast_S64_S1x64_1 b :=
  row_of_vec (n := 64) Cert.KernelIdeal.Gen.shapeCasts_S64_S1x64 Cert.ReferenceIdeal.Gen.bcast_S64_S1x64_1 b

/-- The 2-entry bias reshaped to one row is the bias broadcast along the row. -/
theorem bias2 (b : (⟨Cert.ReferenceIdeal.S2, .f32⟩ : BufTy).Contents (Elt F)) :
    (shapeCast _ b Cert.KernelIdeal.Gen.shapeCasts_S2_S1x2 : (⟨Cert.ReferenceIdeal.S1x2, .f32⟩ : BufTy).Contents (Elt F))
      = broadcastInDim Cert.ReferenceIdeal.S1x2 ![1] Cert.ReferenceIdeal.Gen.bcast_S2_S1x2_1 b :=
  row_of_vec (n := 2) Cert.KernelIdeal.Gen.shapeCasts_S2_S1x2 Cert.ReferenceIdeal.Gen.bcast_S2_S1x2_1 b

end Cert.Sage.BiasRow

end
-- ==== Proof.KernelNet.lean ====
/-
  The kernel program's result is the network. The last pallas_call leaves pooled · W_out + b_out in the result array, pooled
  being the mean per graph of the second pallas_call's output; each of the first two pallas_calls leaves one graph layer
  of what it was given, the mean of the neighbours' rows having been taken by the host operations before it; and a bias
  reshaped to one row is the bias laid along a row. Composed, the result array is the network of the twelve arguments.
-/
import proofs.«104735_j88648124990794_1_alg».proof.Proof.HostStages
import proofs.«104735_j88648124990794_1_alg».proof.Proof.LayerValue0
import proofs.«104735_j88648124990794_1_alg».proof.Proof.LayerValue1
import proofs.«104735_j88648124990794_1_alg».proof.Proof.FinalValue
import proofs.«104735_j88648124990794_1_alg».proof.Proof.BiasRow

set_option maxRecDepth 16384

noncomputable section

namespace Cert.KernelIdeal.KernelNet

open Cert.KernelIdeal Cert.KernelIdeal.Gen Cert.KernelIdeal.HostStages
open Idealize.ShloMosaic Idealize.ShloMosaic.TcCoe Idealize.SL.Sem

variable (m : (ℓ : Loc nD τ sig) → Buf (Elt Ideal) ℓ) (ρ : Dev nD → PrngReg)

/-- The first layer's output is what the first pallas_call leaves. -/
theorem hidden1_eq (c : Dev nD) :
    W4 m ρ c (Proc.devRef .tc main_v33) = Cert.Sage.hidden1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [out0, Cert.Sage.Region0.region0_value, entry0_mean, entry0_x, entry0_bias,
    show V3 m ρ c main_arg4 = _ from stage0_arg4 m ρ c, show V3 m ρ c main_arg6 = _ from stage0_arg6 m ρ c,
    Cert.Sage.BiasRow.bias64]
  rfl

/-- The second layer's output is what the second pallas_call leaves. -/
theorem hidden2_eq (c : Dev nD) :
    W8 m ρ c (Proc.devRef .tc main_v56) = Cert.Sage.hidden2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [out1, Cert.Sage.Region1.region1_value, entry1_mean, entry1_x, entry1_bias,
    show V7 m ρ c main_arg7 = _ from stage1_arg7 m ρ c, show V7 m ρ c main_arg9 = _ from stage1_arg9 m ρ c,
    hidden1_eq, past0_v1, past0_v3, past0_arg7, past0_arg8, past0_arg9, stage0_src, stage0_dst, stage0_arg7, stage0_arg8, stage0_arg9,
    Cert.Sage.BiasRow.bias64]
  rfl

/-- The result array is the network of the arguments. -/
theorem result_eq (c : Dev nD) :
    W12 m ρ c (Proc.devRef .tc main_v72) = Cert.Sage.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [out2, Cert.Sage.Region2.region2_value, entry2_pooled, entry2_W, entry2_bias, hidden2_eq,
    past1_arg2, past1_arg10, past1_arg11, stage1_arg2, stage1_arg10, stage1_arg11,
    past0_arg2, past0_arg10, past0_arg11, stage0_arg2, stage0_arg10, stage0_arg11,
    Cert.Sage.BiasRow.bias2]
  rfl

end Cert.KernelIdeal.KernelNet

end
-- ==== Proof.RefNet.lean ====
/-
  The reference program's result is the network: its run ends with the result array at the composition of its host
  operations applied to the launch contents of the arguments, and that composition is, stage by stage, the embedding
  lookup, two graph layers each over the mean of the neighbours' rows, the mean per graph and the last linear map.
-/
import proofs.«104735_j88648124990794_1_alg».proof.Proof.RefRun
import proofs.«104735_j88648124990794_1_alg».proof.Proof.Net

set_option maxRecDepth 16384

noncomputable section

namespace Cert.ReferenceIdeal.RefNet

open Cert.ReferenceIdeal Cert.ReferenceIdeal.Gen Idealize.ShloMosaic Idealize.ShloMosaic.TcCoe Idealize.SL.Sem

variable {F : FTy → Type} [FloatOps F]

/-- The run's result term is the network of the arguments. -/
theorem result_eq (m : (ℓ : Loc nD τ sig) → Buf (Elt F) ℓ) (c : Dev nD) :
    Cert.ReferenceIdeal.ValueP.res_main_v84 (F := F) m c
      = Cert.Sage.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v84 Cert.Sage.net Cert.Sage.final Cert.Sage.final2d Cert.Sage.pool Cert.Sage.gsize
    Cert.Sage.hidden2 Cert.Sage.hidden1 Cert.Sage.layer Cert.Sage.layer2d Cert.Sage.meanAgg Cert.Sage.indeg Cert.Sage.emb Cert.Sage.src Cert.Sage.dst
  rfl

end Cert.ReferenceIdeal.RefNet

end
-- ==== Proof.lean ====
/-
  Two programs for one graph network — token embeddings, two layers relu(mean · W_l + b_l + x · W_r) over the mean of each
  node's neighbours, the mean per graph, a last linear map — are shown to end with equal results on the extended reals.
  The kernel program runs each layer's linear algebra, and the last map, as a pallas_call over blocks of rows, with the
  same host operations around them as the reference program has; the reference program does everything with host
  operations. On the extended reals a block of rows of a matrix product is the product of the block of rows, a change of
  float format is the identity, and the sums are taken in the same order on both sides, so each pallas_call leaves exactly
  the array the reference's operations compute, and no finiteness of the inputs is used. The three frame claims are the
  programs' runs with the results forgotten; the idealization rewrote nothing, so there is nothing to preserve.
-/
import proofs.«104735_j88648124990794_1_alg».proof.Defs
import proofs.«104735_j88648124990794_1_alg».proof.Proof.Gen.Kernel
import proofs.«104735_j88648124990794_1_alg».proof.Proof.Gen.Kernel.Frame
import proofs.«104735_j88648124990794_1_alg».proof.Proof.Gen.KernelIdeal
import proofs.«104735_j88648124990794_1_alg».proof.Proof.Gen.KernelIdeal.Frame
import proofs.«104735_j88648124990794_1_alg».proof.Proof.Gen.ReferenceIdeal
import proofs.«104735_j88648124990794_1_alg».proof.Proof.Gen.Pre_finite_inputs
import proofs.«104735_j88648124990794_1_alg».proof.Proof.KernelRun
import proofs.«104735_j88648124990794_1_alg».proof.Proof.KernelNet
import proofs.«104735_j88648124990794_1_alg».proof.Proof.RefRun
import proofs.«104735_j88648124990794_1_alg».proof.Proof.RefNet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Both runs end with the result array at the network of the arguments, and the arguments agree. -/
theorem algebraic : Cert.algebraic_KernelIdeal_ReferenceIdeal := by
  intro m ρ m' ρ' _ hagree
  refine ⟨fun c => Cert.Sage.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.KernelNet.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11⟩ := hagree c
    rw [Cert.ReferenceIdeal.RefNet.result_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
